-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S16384x512 : Shape := ⟨2, ![16384, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S4096x512 .f32) (main_arg1 : FVec F S16384x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S4096x512 : Shape := ⟨2, ![4096, 512]⟩
abbrev S16384x512 : Shape := ⟨2, ![16384, 512]⟩
abbrev S512x512 : Shape := ⟨2, ![512, 512]⟩
abbrev S2048x512 : Shape := ⟨2, ![2048, 512]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S4096x16384 : Shape := ⟨2, ![4096, 16384]⟩

abbrev nBuf : Space → Nat
  | .hbm => 35
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x512, .f32⟩
  | .hbm, ⟨11, _⟩ => ⟨S16384x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S_, .f32⟩
  | .hbm, ⟨27, _⟩ => ⟨S4096x16384, .f32⟩
  | .hbm, ⟨28, _⟩ => ⟨S4096x16384, .f32⟩
  | .hbm, ⟨29, _⟩ => ⟨S4096x16384, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x16384 : S_.BroadcastsInDim S4096x16384 (![] : Fin 0 → Fin S4096x16384.rank)
  bcast_S_S4096x512 : S_.BroadcastsInDim S4096x512 (![] : Fin 0 → Fin S4096x512.rank)
  dot_S4096x512_S16384x512_S4096x16384_1_1_0_0_n_n_wf : DotDims.WF S4096x512 S16384x512 S4096x16384 [1] [1] [0] [0] [] []
  dot_S4096x16384_S16384x512_S4096x512_1_0_0_1_n_n_wf : DotDims.WF S4096x16384 S16384x512 S4096x512 [1] [0] [0] [1] [] []

variable [Facts₀]

def dot_S4096x512_S16384x512_S4096x16384_1_1_0_0_n_n : DotDims S4096x512 S16384x512 S4096x16384 where
  lhsContracting := [1]
  rhsContracting := [1]
  lhsNonContracting := [0]
  rhsNonContracting := [0]
  lhsBatch := []
  rhsBatch := []
  wf := dot_S4096x512_S16384x512_S4096x16384_1_1_0_0_n_n_wf
def dot_S4096x16384_S16384x512_S4096x512_1_0_0_1_n_n : DotDims S4096x16384 S16384x512 S4096x512 where
  lhsContracting := [1]
  rhsContracting := [0]
  lhsNonContracting := [0]
  rhsNonContracting := [1]
  lhsBatch := []
  rhsBatch := []
  wf := dot_S4096x16384_S16384x512_S4096x512_1_0_0_1_n_n_wf

class Facts : Prop extends Facts₀ where

variable [Facts]
-- ==== Proof.Pieces.lean ====
/-
  What one visit of a (query tile, key tile) pair leaves behind, for any float instance.

  The running total lives in a 512 x 512 buffer that is kept from one key tile to the next.  A visit reads the query
  tile `x0`, the key tile `x1` and the total so far, and stores the total plus this key tile's contribution
  (`k0_pay3 x0 x1 total`).  At a query tile's FIRST key tile the buffer is first overwritten with zeros
  (`k0_pay2`), so the total it adds to is the zero block, whatever the buffer held.  At a query tile's LAST key tile the
  result tile is written as well: the query tile plus one half of the new total (`k0_pay1`).

  Each store covers its whole buffer, so the last value stored is what the buffer holds afterwards, and a load that
  follows a store of the same buffer reads that store's value.
-/
import proofs.«160806_j28948079575487_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every store and load of the body starts at the buffer's origin. -/
theorem origin : (![0, 0] : Fin 2 → Nat) = fun _ => 0 := funext fun a => by fin_cases a <;> rfl

/-- At a first key tile the running total becomes the zero block plus the tile's contribution. -/
theorem total_first (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (hc0 : cond0_0 i) (hc1 : ¬cond0_1 i)
    (x0 : Vec F S512x512 .f32) (x1 : Vec F S2048x512 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x512) origin, View.readCov_unit_zero (S := S512x512) _ origin]
  simp only [View.readAt_eq_ld, harg2.read_unread, harg3.read_unread,
    View.ld_unit_zero (S := S512x512) origin, View.ld_unit_zero (S := S2048x512) origin]

/-- At a key tile that is neither first nor last the running total `xs0` grows by the tile's contribution. -/
theorem total_middle (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : ¬cond0_1 i)
    (x0 : Vec F S512x512 .f32) (x1 : Vec F S2048x512 .f32) (xs0 : Vec F S512x512 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero origin]
  simp only [View.readAt_eq_ld, harg2.read_unread, harg3.read_unread, harg5.read_unread,
    View.ld_unit_zero (S := S512x512) origin, View.ld_unit_zero (S := S2048x512) origin]

/-- At a last key tile the running total grows in the same way … -/
theorem total_last (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S2048x512 .f32) (xs0 : Vec F S512x512 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread,
    View.ld_unit_zero (S := S512x512) origin, View.ld_unit_zero (S := S2048x512) origin]

/-- … and the result tile is the query tile plus one half of the new total. -/
theorem result_last (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x512 .f32) (harg4 : arg4.IsWhole) (arg5 : Memref sig .tc .vmem S512x512 .f32) (harg5 : arg5.IsWhole) (hc0 : ¬cond0_0 i) (hc1 : cond0_1 i)
    (x0 : Vec F S512x512 .f32) (x1 : Vec F S2048x512 .f32) (xs0 : Vec F S512x512 .f32) :
    out0_C_2 c i arg2 harg2 arg3 harg3 arg4 harg4 arg5 harg5 hc0 hc1 x0 x1 xs0 = k0_pay1 x0 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin, View.readCov_unit_zero (S := S512x512) _ origin]
  simp only [View.readAt_eq_ld, harg2.read_unread, harg3.read_unread, harg5.read_unread,
    View.ld_unit_zero (S := S512x512) origin, View.ld_unit_zero (S := S2048x512) origin]

end Cert.KernelIdeal.Pieces

end
-- ==== Proof.LibBlockedSum.lean ====
/-
  A sum over a long axis cut into equal blocks, and an accumulator that runs over the blocks.

  An axis of `B * K` positions is `B` blocks of `K` positions; position `j` of block `b` is `b * K + j`.  In any
  commutative additive monoid the sum over the whole axis is the sum over the blocks of each block's sum
  (`sum_blocks`): only commutativity and associativity of `+` are used, so the law holds for the extended reals with
  their infinities and needs no finiteness.

  An accumulator that is set to `0` before the first block's partial sum is added, and to which every later block's
  partial sum is added in turn, holds after block `b` the sum of the partial sums of blocks `0 … b`
  (`acc_eq_sum_range`), and after the last of `n + 1` blocks the sum over all of them (`acc_last_eq_sum`).
  Together: a contraction accumulated block by block along its contracted axis is the whole contraction
  (`acc_last_eq_sum_blocks`).
-/
import Mathlib.Algebra.BigOperators.Fin
import Mathlib.Algebra.BigOperators.Intervals
import Mathlib.Logic.Equiv.Fin.Basic

open scoped BigOperators

namespace Idealize.ShloMosaic.BlockedSum

variable {M : Type*} [AddCommMonoid M]

/-- Position `j` of block `b` on an axis of `B` blocks of `K` positions each. -/
def pos (B K : ℕ) (b : Fin B) (j : Fin K) : Fin (B * K) :=
  ⟨b.val * K + j.val, by
    have hb := b.isLt
    have hj := j.isLt
    calc b.val * K + j.val < b.val * K + K := Nat.add_lt_add_left hj _
      _ = (b.val + 1) * K := (Nat.succ_mul b.val K).symm
      _ ≤ B * K := Nat.mul_le_mul_right K hb⟩

@[simp] theorem pos_val (B K : ℕ) (b : Fin B) (j : Fin K) : (pos B K b j).val = b.val * K + j.val := rfl

/-- The sum over the whole axis is the sum, over the blocks, of each block's sum. -/
theorem sum_blocks (B K : ℕ) (f : Fin (B * K) → M) :
    ∑ k : Fin (B * K), f k = ∑ b : Fin B, ∑ j : Fin K, f (pos B K b j) := by
  rw [← Equiv.sum_comp (finProdFinEquiv (m := B) (n := K)) f, Fintype.sum_prod_type]
  refine Finset.sum_congr rfl fun b _ => Finset.sum_congr rfl fun j _ => congrArg f (Fin.ext ?_)
  simp only [finProdFinEquiv_apply_val, pos_val]
  rw [Nat.add_comm, Nat.mul_comm]

/-- The same over an axis whose length `N` is only KNOWN to be `B * K` (a literal such as `16384 = 128 * 128`). -/
theorem sum_blocks_of_eq {N : ℕ} (B K : ℕ) (h : N = B * K) (f : Fin N → M) :
    ∑ k : Fin N, f k = ∑ b : Fin B, ∑ j : Fin K, f (Fin.cast h.symm (pos B K b j)) := by
  subst h
  exact sum_blocks B K f

/-- An accumulator reset to `0` before block `0` is added and then fed every later block holds, after block `b`,
    the sum of the blocks `0 … b`. -/
theorem acc_eq_sum_range (d acc : ℕ → M) (h0 : acc 0 = 0 + d 0) (hs : ∀ b, acc (b + 1) = acc b + d (b + 1)) (b : ℕ) :
    acc b = ∑ j ∈ Finset.range (b + 1), d j := by
  induction b with
  | zero => rw [h0, zero_add, Finset.sum_range_one]
  | succ n ih => rw [hs, ih, Finset.sum_range_succ (n := n + 1)]

/-- After the last of `n + 1` blocks it holds the sum over all of them. -/
theorem acc_last_eq_sum (n : ℕ) (d : Fin (n + 1) → M) (acc : ℕ → M)
    (h0 : acc 0 = 0 + d 0)
    (hs : ∀ b (hb : b + 1 < n + 1), acc (b + 1) = acc b + d ⟨b + 1, hb⟩) :
    acc n = ∑ b : Fin (n + 1), d b := by
  have key : ∀ b (hb : b < n + 1), acc b = ∑ j : Fin (b + 1), d (Fin.castLE hb j) := by
    intro b
    induction b with
    | zero => intro _; rw [h0, zero_add, Fin.sum_univ_one]; rfl
    | succ k ih =>
      intro hb
      rw [hs k hb, ih (Nat.lt_of_succ_lt hb), Fin.sum_univ_castSucc (n := k + 1)]
      rfl
  rw [key n (Nat.lt_succ_self n)]
  exact Finset.sum_congr rfl fun j _ => congrArg d (Fin.ext rfl)

/-- A contraction over an axis of `(n + 1) * K` positions, accumulated block by block from a zero accumulator, is the
    whole contraction. -/
theorem acc_last_eq_sum_blocks (n K : ℕ) (f : Fin ((n + 1) * K) → M) (acc : ℕ → M)
    (h0 : acc 0 = 0 + ∑ j : Fin K, f (pos (n + 1) K 0 j))
    (hs : ∀ b (hb : b + 1 < n + 1), acc (b + 1) = acc b + ∑ j : Fin K, f (pos (n + 1) K ⟨b + 1, hb⟩ j)) :
    acc n = ∑ k : Fin ((n + 1) * K), f k := by
  rw [sum_blocks (n + 1) K f]
  exact acc_last_eq_sum n (fun b => ∑ j : Fin K, f (pos (n + 1) K b j)) acc h0 hs

end Idealize.ShloMosaic.BlockedSum
-- ==== Proof.Retrieval.lean ====
/-
  The mathematics both programs compute, over the extended reals.

  A query row `q` and 16384 key rows `k`, each of 512 entries.  A row's LENGTH is the square root of the sum of its
  squared entries, but never less than a small positive floor; its DIRECTION is the row divided by its length.  The
  AFFINITY of a query and a key is the inner product of their directions, a key's WEIGHT is `exp (-5.5 * (1 - affinity))`,
  and the key's SHARE at column `d` is its weight times its direction's entry `d`.  The result at column `d` is the
  query's entry plus one half of the sum of the shares of all keys.

  The keys come in 8 consecutive blocks of 2048.  Since addition of extended reals is commutative and associative (also
  at the infinities), the sum over all keys is the sum over the blocks of each block's sum; no finiteness is used.
-/
import Idealize.ShloMosaic.PureOps.Ideal
import Idealize.ShloMosaic.PureOps.Ideal.Laws
import Idealize.ShloMosaic.Lib.ValueIdx
import proofs.«160806_j28948079575487_1_alg».proof.Proof.LibBlockedSum

noncomputable section

open scoped BigOperators

namespace Cert.Retrieval

open Idealize.ShloMosaic Idealize.ShloMosaic.ValueIdx

/-- The floor under a row's length: the single-precision number nearest to 1e-12. -/
def lengthFloor : EReal := Ideal.ofBits .f32 0x2B8CBCCC#32

/-- A row's length, floored. -/
def length (x : Fin 512 → EReal) : EReal := max (Ideal.sqrt (∑ c : Fin 512, x c * x c)) lengthFloor

/-- A row's direction: each entry over the row's length. -/
def dir (x : Fin 512 → EReal) (c : Fin 512) : EReal := Ideal.div (x c) (length x)

/-- The inner product of two rows' directions. -/
def affinity (q k : Fin 512 → EReal) : EReal := ∑ c : Fin 512, dir q c * dir k c

/-- A key's weight for a query: `exp (-5.5 * (1 - affinity))`. -/
def weight (q k : Fin 512 → EReal) : EReal :=
  Ideal.exp (Ideal.ofBits .f32 0xC0B00000#32 * (Ideal.ofBits .f32 0x3F800000#32 - affinity q k))

/-- What one key contributes to the query's result at column `d`. -/
def share (q k : Fin 512 → EReal) (d : Fin 512) : EReal := weight q k * dir k d

/-- The result row: the query plus one half of all the keys' shares. -/
def blend (q : Fin 512 → EReal) (keys : Fin 16384 → Fin 512 → EReal) (d : Fin 512) : EReal :=
  q d + Ideal.ofBits .f32 0x3F000000#32 * ∑ n : Fin 16384, share q (keys n) d

/-- Row `R` of a query array of 4096 rows. -/
def queryRow (Q : (⟨2, ![4096, 512]⟩ : Shape).Idx → EReal) (R : Fin 4096) : Fin 512 → EReal := fun k => Q (ix2 R k)

/-- Row `n` of a key array of 16384 rows. -/
def keyRow (K : (⟨2, ![16384, 512]⟩ : Shape).Idx → EReal) (n : Fin 16384) : Fin 512 → EReal := fun k => K (ix2 n k)

/-- The whole result array: row by row, the query row blended with all the keys. -/
def blendAll (Q : (⟨2, ![4096, 512]⟩ : Shape).Idx → EReal) (K : (⟨2, ![16384, 512]⟩ : Shape).Idx → EReal) :
    (⟨2, ![4096, 512]⟩ : Shape).Idx → EReal :=
  fun i => blend (queryRow Q (i 0)) (keyRow K) (i 1)

theorem blendAll_apply (Q : (⟨2, ![4096, 512]⟩ : Shape).Idx → EReal) (K : (⟨2, ![16384, 512]⟩ : Shape).Idx → EReal)
    (R : Fin 4096) (d : Fin 512) : blendAll Q K (ix2 R d) = blend (queryRow Q R) (keyRow K) d := rfl

/-- Key `j` of block `s`, among 8 blocks of 2048 keys. -/
def keyAt (s : Fin 8) (j : Fin 2048) : Fin 16384 := ⟨s.val * 2048 + j.val, by have := s.isLt; have := j.isLt; omega⟩

@[simp] theorem keyAt_val (s : Fin 8) (j : Fin 2048) : (keyAt s j).val = s.val * 2048 + j.val := rfl

/-- A sum over all 16384 keys is the sum, over the 8 blocks, of each block's sum. -/
theorem sum_keys_by_blocks {M : Type*} [AddCommMonoid M] (f : Fin 16384 → M) :
    ∑ n : Fin 16384, f n = ∑ s : Fin 8, ∑ j : Fin 2048, f (keyAt s j) := by
  rw [BlockedSum.sum_blocks_of_eq 8 2048 (by norm_num : 16384 = 8 * 2048) f]
  exact Finset.sum_congr rfl fun s _ => Finset.sum_congr rfl fun j _ => congrArg f (Fin.ext rfl)

/-- Eight block sums added one after the other onto zero make the sum over all keys. -/
theorem zero_add_blocks_eq_sum (f : Fin 16384 → EReal) (g : ℕ → EReal)
    (hg : ∀ s : Fin 8, g s.val = ∑ j : Fin 2048, f (keyAt s j)) :
    (0 : EReal) + ∑ s ∈ Finset.range 8, g s = ∑ n : Fin 16384, f n := by
  rw [zero_add, Finset.sum_range, sum_keys_by_blocks]
  exact Finset.sum_congr rfl fun s _ => hg s

end Cert.Retrieval

end
-- ==== Proof.LibRowOps.lean ====
/-
  Row-wise layout operations of a two-axis array, read at an entry; generic in the number of rows, so that one statement
  serves every tiling of a row-wise computation.

    * a column [a, 1] broadcast across b columns reads, at (p, c), the column's entry at row p;
    * a single entry [1, 1] broadcast down a rows reads that entry;
    * a vector [a] recast as a column [a, 1] reads, at (p, 0), the vector's entry p;
    * the sum of an [a, b] array along its second axis reads, at p, the sum over the b entries of row p.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type}

/-- A column broadcast across the columns. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast down the rows. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- A vector recast as a column. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The sum along the second axis, at row `p`, over the extended reals. -/
theorem lane_sum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

end Idealize.ShloMosaic.RowOps

end
-- ==== Proof.LibDot2D.lean ====
/-
  A matrix product of a [M, K] array with a [K, N] array, contracted over the one shared axis, read at an entry of the
  result.  Over the extended reals both the product into a zero accumulator and the host's general dot product are the
  plain sum  ∑ k, lhs (i, k) * rhs (k, j).  The contraction's index type has one coordinate; the sum is re-indexed by
  that coordinate.  The lemmas take the four coordinate facts of the dimension record as hypotheses, so they apply to
  any record that contracts axis 1 of the left operand against axis 0 of the right one.
-/
import Idealize.ShloMosaic.PureOps.Ideal.Laws
import Idealize.ShloMosaic.Lib.ValueIdx

noncomputable section

open scoped BigOperators

namespace Idealize.ShloMosaic.Dot2D

open Idealize.ShloMosaic Idealize.ShloMosaic.ValueIdx

variable {M K N : ℕ}

/-- The sum over the contraction index of a rows-by-columns record is the sum over `k : Fin K` of the entries
    `(i, k)` and `(k, j)`. -/
theorem sum_contr (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    (∑ q : d.contr.Idx, lhs (d.lhsIdx (ix2 i j) q) * rhs (d.rhsIdx (ix2 i j) q))
      = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Idealize.ShloMosaic.Dot2D

end
-- ==== Proof.LibDotRows.lean ====
/-
  A product of a [M, K] array with a [N, K] array that contracts the SECOND axis of both ("rows against rows": the
  right operand is used transposed), read at an entry of the [M, N] result.  The contraction's index type has one
  coordinate; the sum over it is re-indexed by that coordinate:  ∑ k, lhs (i, k) * rhs (j, k).  The lemma takes the four
  coordinate facts of the dimension record as hypotheses, so it applies to any record that contracts axis 1 of the left
  operand against axis 1 of the right one, for a kernel's matrix product and for the host's general dot product alike.
-/
import Idealize.ShloMosaic.PureOps.Ideal.Laws
import Idealize.ShloMosaic.Lib.ValueIdx

noncomputable section

open scoped BigOperators

namespace Idealize.ShloMosaic.DotRows

open Idealize.ShloMosaic Idealize.ShloMosaic.ValueIdx

variable {M K N : ℕ}

/-- The sum over the contraction index of a rows-against-rows record is the sum over `k : Fin K` of the entries
    `(i, k)` of the left operand and `(j, k)` of the right one. -/
theorem sum_contr (d : DotDims ⟨2, ![M, K]⟩ ⟨2, ![N, K]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (j 1).val)
    (hr1 : ∀ j q, (d.rhsIdx j q 1).val = (q ⟨0, by omega⟩).val)
    (lhs : (⟨2, ![M, K]⟩ : Shape).Idx → EReal) (rhs : (⟨2, ![N, K]⟩ : Shape).Idx → EReal) (i : Fin M) (j : Fin N) :
    (∑ q : d.contr.Idx, lhs (d.lhsIdx (ix2 i j) q) * rhs (d.rhsIdx (ix2 i j) q))
      = ∑ k : Fin K, lhs (ix2 i k) * rhs (ix2 j k) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

end Idealize.ShloMosaic.DotRows

end
-- ==== Proof.TileTerm.lean ====
/-
  One visit's arithmetic, entry by entry, over the extended reals.

  For a query tile `x0` (512 rows) and a key tile `x1` (2048 rows), each row of 512 entries:

    * dividing a tile by its rows' floored lengths, broadcast across the columns, gives each row's direction
      (`dir_tile`: the lane sum of the squares, its square root, the maximum with the floor, the division);
    * the first matrix product, rows of the query directions against rows of the key directions, is the affinity of a
      query row and a key row; `exp (-5.5 * (1 - affinity))` is the key's weight; the conversions to the short float
      format on the way into the products change nothing here;
    * the second matrix product, weights against key directions, sums over the tile's 2048 keys each key's share;
    * the visit stores the running total plus that sum (`total_step`), and at the end the query entry plus one half
      of the total (`result_entry`); the zero block is zero everywhere (`zero_entry`).
-/
import proofs.«160806_j28948079575487_1_alg».proof.Proof.Gen.KernelIdeal.Skeleton
import proofs.«160806_j28948079575487_1_alg».proof.Proof.Retrieval
import proofs.«160806_j28948079575487_1_alg».proof.Proof.LibRowOps
import proofs.«160806_j28948079575487_1_alg».proof.Proof.LibDot2D
import proofs.«160806_j28948079575487_1_alg».proof.Proof.LibDotRows
import Idealize.ShloMosaic.Lib.ValueIdx
import Idealize.ShloMosaic.Lib.Pipeline.Value
import Idealize.ShloMosaic.PureOps.Ideal.Laws

noncomputable section

open scoped BigOperators

namespace Cert.KernelIdeal.TileTerm

open Cert.KernelIdeal Cert.KernelIdeal.Gen Idealize.ShloMosaic Idealize.ShloMosaic.ValueIdx Cert.Retrieval

/-- A tile of `a` rows divided by its rows' floored lengths: each row's direction. -/
theorem dir_tile {a : ℕ} (x : FVec Ideal ⟨2, ![a, 512]⟩ .f32)
    (hred : (⟨2, ![a, 512]⟩ : Shape).Reduces [(1 : Fin 2)] ⟨1, ![a]⟩)
    (hφ : FKind.Formats .f32) (hacc : (0x00000000#32 : BitVec 32) = FKind.add.neutral .f32 hφ)
    (hcast : (⟨1, ![a]⟩ : Shape).ShapeCasts ⟨2, ![a, 1]⟩)
    (hb : (⟨2, ![a, 1]⟩ : Shape).Broadcasts ⟨2, ![a, 512]⟩) (r : Fin a) (c : Fin 512) :
    divf x (broadcastTo ⟨2, ![a, 512]⟩
        (maximumf (sqrt (shapeCast ⟨2, ![a, 1]⟩ (multiReduction .add [(1 : Fin 2)] ⟨1, ![a]⟩ (mulf x x) 0x00000000#32 hred hφ hacc) hcast))
          (broadcast ⟨2, ![a, 1]⟩ (Scalar.ofBits (F := Ideal) .f32 0x2B8CBCCC#32))) hb) (ix2 r c)
      = dir (fun c' => x (ix2 r c')) c := by
  show Ideal.div (x (ix2 r c)) (broadcastTo ⟨2, ![a, 512]⟩ _ hb (ix2 r c)) = Ideal.div (x (ix2 r c)) (length _)
  refine congrArg (Ideal.div (x (ix2 r c))) ?_
  refine (RowOps.broadcastTo_a1_ab_apply _ hb r c).trans ?_
  show max (Ideal.sqrt (shapeCast ⟨2, ![a, 1]⟩ _ hcast (ix2 r (0 : Fin 1)))) (Ideal.ofBits .f32 0x2B8CBCCC#32) = max (Ideal.sqrt _) lengthFloor
  refine congrArg (fun z => max (Ideal.sqrt z) lengthFloor) ?_
  refine (RowOps.shapeCast_a_a1_apply _ hcast r).trans ?_
  exact RowOps.lane_sum_apply (mulf x x) _ hred hφ hacc r

/-! ## The two products' index maps

The first product contracts the columns of both tiles (query row `i`, key row `j`: entries `(i, k)` and `(j, k)`); the
second contracts the weights' key axis against the key tile's rows (entries `(i, k)` and `(k, j)`). -/

theorem aff_l0 (j : S512x2048.Idx) (q : dot_S512x512_S2048x512_S512x2048_1_1_0_0_n_n.contr.Idx) :
    (dot_S512x512_S2048x512_S512x2048_1_1_0_0_n_n.lhsIdx j q 0).val = (j 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem aff_l1 (j : S512x2048.Idx) (q : dot_S512x512_S2048x512_S512x2048_1_1_0_0_n_n.contr.Idx) :
    (dot_S512x512_S2048x512_S512x2048_1_1_0_0_n_n.lhsIdx j q 1).val = (q ⟨0, by decide⟩).val :=
  dot_S512x512_S2048x512_S512x2048_1_1_0_0_n_n.lhsIdx_val_of_single rfl j q
theorem aff_r0 (j : S512x2048.Idx) (q : dot_S512x512_S2048x512_S512x2048_1_1_0_0_n_n.contr.Idx) :
    (dot_S512x512_S2048x512_S512x2048_1_1_0_0_n_n.rhsIdx j q 0).val = (j 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem aff_r1 (j : S512x2048.Idx) (q : dot_S512x512_S2048x512_S512x2048_1_1_0_0_n_n.contr.Idx) :
    (dot_S512x512_S2048x512_S512x2048_1_1_0_0_n_n.rhsIdx j q 1).val = (q ⟨0, by decide⟩).val :=
  dot_S512x512_S2048x512_S512x2048_1_1_0_0_n_n.rhsIdx_val_of_single rfl j q

theorem sh_l0 (j : S512x512.Idx) (q : dot_S512x2048_S2048x512_S512x512_1_0_0_1_n_n.contr.Idx) :
    (dot_S512x2048_S2048x512_S512x512_1_0_0_1_n_n.lhsIdx j q 0).val = (j 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem sh_l1 (j : S512x512.Idx) (q : dot_S512x2048_S2048x512_S512x512_1_0_0_1_n_n.contr.Idx) :
    (dot_S512x2048_S2048x512_S512x512_1_0_0_1_n_n.lhsIdx j q 1).val = (q ⟨0, by decide⟩).val :=
  dot_S512x2048_S2048x512_S512x512_1_0_0_1_n_n.lhsIdx_val_of_single rfl j q
theorem sh_r0 (j : S512x512.Idx) (q : dot_S512x2048_S2048x512_S512x512_1_0_0_1_n_n.contr.Idx) :
    (dot_S512x2048_S2048x512_S512x512_1_0_0_1_n_n.rhsIdx j q 0).val = (q ⟨0, by decide⟩).val :=
  dot_S512x2048_S2048x512_S512x512_1_0_0_1_n_n.rhsIdx_val_of_single rfl j q
theorem sh_r1 (j : S512x512.Idx) (q : dot_S512x2048_S2048x512_S512x512_1_0_0_1_n_n.contr.Idx) :
    (dot_S512x2048_S2048x512_S512x512_1_0_0_1_n_n.rhsIdx j q 1).val = (j 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-! ## One visit, at an entry -/

/-- The zero block is zero at every entry. -/
theorem zero_entry (i : S512x512.Idx) : k0_pay2 (F := Ideal) i = 0 := by
  unfold k0_pay2
  refine (congrFun (shapeCast_self _ _) i).trans ?_
  exact Ideal.ofBits_zero_f32

/-- The result tile's entry: the query entry plus one half of the total's entry. -/
theorem result_entry (x0 tot : Vec Ideal S512x512 .f32) (r d : Fin 512) :
    k0_pay1 (F := Ideal) x0 tot (ix2 r d) = x0 (ix2 r d) + Ideal.ofBits .f32 0x3F000000#32 * tot (ix2 r d) := rfl

/-- One visit adds to the total, at entry `(r, d)`, the shares at column `d` of the tile's 2048 keys for query row `r`. -/
theorem total_step (x0 : Vec Ideal S512x512 .f32) (x1 : Vec Ideal S2048x512 .f32) (acc : Vec Ideal S512x512 .f32)
    (r d : Fin 512) :
    k0_pay3 (F := Ideal) x0 x1 acc (ix2 r d)
      = acc (ix2 r d) + ∑ j : Fin 2048, share (fun k => x0 (ix2 r k)) (fun k => x1 (ix2 j k)) d := by
  unfold k0_pay3
  dsimp only
  refine (congrFun (shapeCast_self _ _) (ix2 r d)).trans ?_
  show acc (ix2 r d) + _ = _
  refine congrArg (acc (ix2 r d) + ·) ?_
  refine (Ideal.matmul_constant_zero_apply dot_S512x2048_S2048x512_S512x512_1_0_0_1_n_n none _ _ (ix2 r d)).trans ?_
  refine (Dot2D.sum_contr dot_S512x2048_S2048x512_S512x512_1_0_0_1_n_n rfl rfl sh_l0 sh_l1 sh_r0 sh_r1 _ _ r d).trans ?_
  refine Finset.sum_congr rfl fun j _ => ?_
  refine congrArg₂ (· * ·) ?_ (dir_tile x1 _ _ _ _ _ j d)
  show Ideal.exp (Ideal.ofBits .f32 0xC0B00000#32 * (Ideal.ofBits .f32 0x3F800000#32 - _)) = weight _ _
  unfold weight affinity
  refine congrArg (fun z => Ideal.exp (Ideal.ofBits .f32 0xC0B00000#32 * (Ideal.ofBits .f32 0x3F800000#32 - z))) ?_
  refine (Ideal.matmul_constant_zero_apply dot_S512x512_S2048x512_S512x2048_1_1_0_0_n_n none _ _ (ix2 r j)).trans ?_
  refine (DotRows.sum_contr dot_S512x512_S2048x512_S512x2048_1_1_0_0_n_n rfl rfl aff_l0 aff_l1 aff_r0 aff_r1 _ _ r j).trans ?_
  exact Finset.sum_congr rfl fun k _ => congrArg₂ (· * ·) (dir_tile x0 _ _ _ _ _ r k) (dir_tile x1 _ _ _ _ _ j k)

end Cert.KernelIdeal.TileTerm

end
-- ==== Proof.TileRows.lean ====
/-
  Which rows of the argument arrays a visit sees.

  The 64 visits run query tile by query tile: visit `t` works on query tile `t / 8` (rows `512 * (t / 8) …`) and key
  tile `t % 8` (rows `2048 * (t % 8) …`), and the result tile it may write is result tile `t / 8`.  So entry
  `(r, k)` of the query tile a visit loads is entry `(512 * (t / 8) + r, k)` of the query array, and entry `(j, k)` of
  its key tile is entry `(2048 * (t % 8) + j, k)` of the key array.  The tiles span all 512 columns.
-/
import proofs.«160806_j28948079575487_1_alg».proof.Proof.Gen.KernelIdeal.Frame
import Idealize.ShloMosaic.Lib.ValueIdx
import Idealize.ShloMosaic.Lib.Pipeline.Value

noncomputable section

namespace Cert.KernelIdeal.TileRows

open Cert.KernelIdeal Cert.KernelIdeal.Gen Idealize.ShloMosaic Idealize.ShloMosaic.ValueIdx Idealize.ShloMosaic.TcCoe
  Idealize.SL.Sem

variable {F : FTy → Type} [FloatOps F]
variable (m : (ℓ : Loc nD τ sig) → Buf (Elt F) ℓ)

/-- The tile numbers of a visit, read off the printed index maps once over the 64 visits. -/
theorem tile_of_visit : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- An entry of the query tile of visit `t` is the query array's entry in row `512 * (t / 8) + r`. -/
theorem query_tile_entry (c : Dev nD) (t : Fin cfg0.N) (r k : Fin 512) (R : Fin 4096)
    (hR : R.val = t.val / 8 * 512 + r.val) :
    (iblk m c 0 t : Vec F S512x512 .f32) (ix2 r k) = m ((c : Thread nD τ).loc main_arg0) (ix2 R k) := by
  obtain ⟨e0, e1, -⟩ := tile_of_visit t
  unfold iblk
  rw [View.read_apply]
  show V m c main_arg0 _ = m ((c : Thread nD τ).loc main_arg0) _
  refine congrArg (m ((c : Thread nD τ).loc main_arg0)) ?_
  funext a
  apply Fin.ext
  match a with
  | ⟨0, _⟩ => show win0_0.index t (0 : Fin 2) * 512 + 1 * r.val = R.val; omega
  | ⟨1, _⟩ => show win0_0.index t (1 : Fin 2) * 512 + 1 * k.val = k.val; omega

/-- An entry of the key tile of visit `t` is the key array's entry in row `2048 * (t % 8) + j`. -/
theorem key_tile_entry (c : Dev nD) (t : Fin cfg0.N) (j : Fin 2048) (k : Fin 512) (n : Fin 16384)
    (hn : n.val = t.val % 8 * 2048 + j.val) :
    (iblk m c 1 t : Vec F S2048x512 .f32) (ix2 j k) = m ((c : Thread nD τ).loc main_arg1) (ix2 n k) := by
  obtain ⟨-, -, e2, e3, -⟩ := tile_of_visit t
  unfold iblk
  rw [View.read_apply]
  show V m c main_arg1 _ = m ((c : Thread nD τ).loc main_arg1) _
  refine congrArg (m ((c : Thread nD τ).loc main_arg1)) ?_
  funext a
  apply Fin.ext
  match a with
  | ⟨0, _⟩ => show win0_1.index t (0 : Fin 2) * 2048 + 1 * j.val = n.val; omega
  | ⟨1, _⟩ => show win0_1.index t (1 : Fin 2) * 512 + 1 * k.val = k.val; omega

end Cert.KernelIdeal.TileRows

end
-- ==== Proof.Whole.lean ====
/-
  The idealized kernel's result array is the blend of every query row with all the keys.

  Fix a query tile.  Its eight visits (key tiles 0 … 7) keep a running total: the first visit starts it from the zero
  block, every visit adds the shares of its own 2048 keys (`first_visit`, `later_visit`), so after the visit of key
  tile `s` the total at entry `(r, d)` is zero plus the sums of key tiles `0 … s` (`total_eq`).  The last visit writes
  the result tile: the query entry plus one half of the total (`result_tile_entry`).  Eight consecutive blocks of 2048
  keys are all 16384 keys, and a sum of extended reals may be regrouped freely, so the result tile's entry is the blend
  of the query row with all the keys (`flushed_entry`).  Only the last visit of each query tile writes a result tile, the
  eight result tiles are the eight row blocks of the result array, so the array ends holding the blend everywhere
  (`final`).
-/
import proofs.«160806_j28948079575487_1_alg».proof.Proof.Gen.KernelIdeal.Value
import proofs.«160806_j28948079575487_1_alg».proof.Proof.Pieces
import proofs.«160806_j28948079575487_1_alg».proof.Proof.TileTerm
import proofs.«160806_j28948079575487_1_alg».proof.Proof.TileRows
import proofs.«160806_j28948079575487_1_alg».proof.Proof.Retrieval

noncomputable section

open scoped BigOperators

namespace Cert.KernelIdeal.Whole

open Cert.KernelIdeal Cert.KernelIdeal.Gen Idealize.ShloMosaic Idealize.ShloMosaic.ValueIdx Idealize.ShloMosaic.TcCoe
  Idealize.SL.Sem Cert.Retrieval
open Idealize.ShloMosaic.Pipeline (Dat)

variable (m : (ℓ : Loc nD τ sig) → Buf (Elt Ideal) ℓ) (ρ : Dev nD → PrngReg)

/-- The result array the kernel ends with, as a function of its two argument arrays. -/
def result (c : Dev nD) : Buf (Elt Ideal) ((c : Thread nD τ).loc main_v0) :=
  blendAll (m ((c : Thread nD τ).loc main_arg0)) (m ((c : Thread nD τ).loc main_arg1))

/-- What visit `n` adds to the running total at entry `(r, d)`: the shares of its key tile's 2048 keys. -/
def visitSum (c : Dev nD) (n : ℕ) (r d : Fin 512) : EReal :=
  if h : n < cfg0.N then
    ∑ j : Fin 2048, share (fun k => (iblk m c 0 ⟨n, h⟩ : Vec Ideal S512x512 .f32) (ix2 r k))
      (fun k => (iblk m c 1 ⟨n, h⟩ : Vec Ideal S2048x512 .f32) (ix2 j k)) d
  else 0

/-- A query tile's first visit leaves zero plus its own sum. -/
theorem first_visit (c : Dev nD) (b : ℕ) (hb0 : b % 8 = 0) (h : b < cfg0.N) (i : S512x512.Idx) :
    Value.scAt0_0 m c b h (VS0_0.read (Elt Ideal) VS0_0.junk) i = (0 : EReal) + visitSum m c b (i 0) (i 1) := by
  obtain ⟨r, d, rfl⟩ : ∃ (r d : Fin 512), i = ix2 r d := ⟨i 0, i 1, eq_ix2 i⟩
  have h1 : ¬b % 8 = 7 := by omega
  unfold Value.scAt0_0
  rw [dif_pos hb0, dif_neg h1, Pieces.total_first]
  refine (TileTerm.total_step (iblk m c 0 ⟨b, h⟩) (iblk m c 1 ⟨b, h⟩) _ r d).trans ?_
  rw [TileTerm.zero_entry]
  show (0 : EReal) + _ = 0 + visitSum m c b r d
  unfold visitSum
  rw [dif_pos h]

/-- Every later visit of the query tile adds its own sum to what the visit before left. -/
theorem later_visit (c : Dev nD) (n : ℕ) (hn0 : ¬n % 8 = 0) (h : n < cfg0.N) (acc : S512x512.Idx → EReal)
    (i : S512x512.Idx) :
    Value.scAt0_0 m c n h acc i = acc i + visitSum m c n (i 0) (i 1) := by
  obtain ⟨r, d, rfl⟩ : ∃ (r d : Fin 512), i = ix2 r d := ⟨i 0, i 1, eq_ix2 i⟩
  unfold Value.scAt0_0
  rw [dif_neg hn0]
  by_cases h1 : n % 8 = 7
  · rw [dif_pos h1, Pieces.total_last]
    refine (TileTerm.total_step (iblk m c 0 ⟨n, h⟩) (iblk m c 1 ⟨n, h⟩) acc r d).trans ?_
    show acc (ix2 r d) + _ = acc (ix2 r d) + visitSum m c n r d
    unfold visitSum
    rw [dif_pos h]
  · rw [dif_neg h1, Pieces.total_middle]
    refine (TileTerm.total_step (iblk m c 0 ⟨n, h⟩) (iblk m c 1 ⟨n, h⟩) acc r d).trans ?_
    show acc (ix2 r d) + _ = acc (ix2 r d) + visitSum m c n r d
    unfold visitSum
    rw [dif_pos h]

/-- The running total after visit `t`: zero plus the sums of the query tile's visits so far. -/
theorem total_eq (c : Dev nD) (t : Fin cfg0.N) (r d : Fin 512) :
    (outsAt0 m c t.val t.isLt).2 (ix2 r d)
      = (0 : EReal) + ∑ s ∈ Finset.range (t.val % 8 + 1), visitSum m c (8 * (t.val / 8) + s) r d := by
  have ha : ∀ (h : 8 * (t.val / 8) < cfg0.N) (i : S512x512.Idx),
      Value.scAt0_0 m c (8 * (t.val / 8)) h (VS0_0.read (Elt Ideal) VS0_0.junk) i
        = (0 : EReal) + visitSum m c (8 * (t.val / 8)) (i 0) (i 1) :=
    fun h i => first_visit m c _ (Nat.mul_mod_right 8 _) h i
  have hg : ∀ (n : ℕ) (h : n < cfg0.N) (acc : S512x512.Idx → EReal) (i : S512x512.Idx),
      8 * (t.val / 8) < n → n ≤ 8 * (t.val / 8) + 7 →
      Value.scAt0_0 m c n h acc i = acc i + visitSum m c n (i 0) (i 1) :=
    fun n h acc i hlo hhi => later_visit m c n (by omega) h acc i
  have hj : t.val % 8 ≤ 7 := by omega
  rw [Value.soutsAt0_0_eq m c t]
  exact Pipeline.accAt_add_apply (N := cfg0.N) (ι := S512x512.Idx) (β := EReal)
    (fun n h => Value.scAt0_0 m c n h (VS0_0.read (Elt Ideal) VS0_0.junk)) (Value.scAt0_0 m c)
    (fun _ => (0 : EReal)) (fun n i => visitSum m c n (i 0) (i 1)) (8 * (t.val / 8)) 7 ha hg
    (t.val % 8) hj _ (ix2 r d)

/-- At a query tile's last visit the result tile is the query tile plus one half of the total the visit leaves. -/
theorem result_tile (c : Dev nD) (t : Fin cfg0.N) (h7 : t.val % 8 = 7) :
    (outsAt0 m c t.val t.isLt).1 = k0_pay1 (iblk m c 0 t) (outsAt0 m c t.val t.isLt).2 := by
  have h0 : ¬t.val % 8 = 0 := by omega
  rw [outsAt0_C m c t h0 h7]
  dsimp only
  rw [Pieces.result_last, Pieces.total_last]

/-- The sum a visit adds, in terms of the argument arrays: visit `8 q + s` pairs the rows of query tile `q` with the
    2048 keys of key block `s`. -/
theorem visitSum_rows (c : Dev nD) (q : ℕ) (hq : q < 8) (s : Fin 8) (r d : Fin 512) (R : Fin 4096)
    (hR : R.val = q * 512 + r.val) :
    visitSum m c (8 * q + s.val) r d
      = ∑ j : Fin 2048, share (queryRow (m ((c : Thread nD τ).loc main_arg0)) R)
          (keyRow (m ((c : Thread nD τ).loc main_arg1)) (keyAt s j)) d := by
  have hN : cfg0.N = 64 := N_0
  have hs : s.val < 8 := s.isLt
  have hlt : 8 * q + s.val < cfg0.N := by omega
  unfold visitSum
  rw [dif_pos hlt]
  refine Finset.sum_congr rfl fun j _ => ?_
  refine congrArg₂ (fun a b => share a b d) (funext fun k => ?_) (funext fun k => ?_)
  · exact TileRows.query_tile_entry m c ⟨8 * q + s.val, hlt⟩ r k R
      (by show R.val = (8 * q + s.val) / 8 * 512 + r.val; omega)
  · exact TileRows.key_tile_entry m c ⟨8 * q + s.val, hlt⟩ j k (keyAt s j)
      (by show (keyAt s j).val = (8 * q + s.val) % 8 * 2048 + j.val; rw [keyAt_val]; omega)

/-- What a query tile's last visit leaves in the result tile is the blend, at the tile's rows of the result array. -/
theorem flushed_entry (c : Dev nD) (t : Fin cfg0.N) (h7 : t.val % 8 = 7) (r d : Fin 512) (R : Fin 4096)
    (hR : R.val = t.val / 8 * 512 + r.val) :
    (outsAt0 m c t.val t.isLt).1 (ix2 r d) = result m c (ix2 R d) := by
  have hN : cfg0.N = 64 := N_0
  have hq : t.val / 8 < 8 := by have := t.isLt; omega
  rw [result_tile m c t h7]
  refine (TileTerm.result_entry (iblk m c 0 t) _ r d).trans ?_
  rw [total_eq m c t r d, h7, TileRows.query_tile_entry m c t r d R hR]
  unfold result
  rw [blendAll_apply]
  unfold blend
  refine congrArg (fun z => queryRow (m ((c : Thread nD τ).loc main_arg0)) R d + Ideal.ofBits .f32 0x3F000000#32 * z) ?_
  exact zero_add_blocks_eq_sum
    (fun n => share (queryRow (m ((c : Thread nD τ).loc main_arg0)) R) (keyRow (m ((c : Thread nD τ).loc main_arg1)) n) d)
    (fun s => visitSum m c (8 * (t.val / 8) + s) r d)
    (fun s => visitSum_rows m c (t.val / 8) hq s r d R hR)

/-- What a write-back writes is the result tile's block of the blend. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h7 : t.val % 8 = 7 := (flush0_2 t).mp hf
  have hq : t.val / 8 < 8 := by have := t.isLt; omega
  obtain ⟨-, -, -, -, e4, e5⟩ := TileRows.tile_of_visit t
  rw [Value.flushed2]
  funext j
  have hj0 : (j 0).val < 512 := (j 0).isLt
  have hj1 : (j 1).val < 512 := (j 1).isLt
  have hx : (cfg0.win 2).xinj (grid0.coords t) j = ix2 (⟨(j 0).val, hj0⟩ : Fin 512) (⟨(j 1).val, hj1⟩ : Fin 512) :=
    funext fun a => Fin.ext (by match a with | ⟨0, _⟩ => rfl | ⟨1, _⟩ => rfl)
  have hy : ((cfg0.win 2).blk t).view.emb j
      = ix2 (⟨t.val / 8 * 512 + (j 0).val, by omega⟩ : Fin 4096) (⟨(j 1).val, hj1⟩ : Fin 512) :=
    funext fun a => Fin.ext (by
      match a with
      | ⟨0, _⟩ => show win0_2.index t (0 : Fin 2) * 512 + 1 * (j 0).val = t.val / 8 * 512 + (j 0).val; omega
      | ⟨1, _⟩ => show win0_2.index t (1 : Fin 2) * 512 + 1 * (j 1).val = (j 1).val; omega)
  show (outsAt0 m c t.val t.isLt).1 ((cfg0.win 2).xinj (grid0.coords t) j) = result m c (((cfg0.win 2).blk t).view.emb j)
  rw [hx, hy]
  exact flushed_entry m c t h7 _ _ _ rfl

/-- An entry of the result array lies in visit `t`'s result tile iff each coordinate lies in the tile's range. -/
theorem mem_tile (t : Fin cfg0.N) (i : S4096x512.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- The result array ends holding the blend: row `R` lies in the result tile that the last visit of query tile
    `R / 512` writes back. -/
theorem final (c : Dev nD) : (dats m 0 c).arrAt 2 cfg0.N = result m c :=
  (dats m 0 c).arrAt_eq_of_cover 2 (result m c) (flushed_eq m c) fun i => by
    have hN : cfg0.N = 64 := N_0
    have hi0 : (i 0).val < 4096 := (i 0).isLt
    have hi1 : (i 1).val < 512 := (i 1).isLt
    obtain ⟨t, ht⟩ : ∃ t : Fin cfg0.N, t.val = 8 * ((i 0).val / 512) + 7 := ⟨⟨8 * ((i 0).val / 512) + 7, by omega⟩, rfl⟩
    obtain ⟨-, -, -, -, e4, e5⟩ := TileRows.tile_of_visit t
    refine ⟨t, (flush0_2 t).mpr (by omega), ?_⟩
    rw [mem_tile]
    intro a
    match a with
    | ⟨0, _⟩ =>
      show win0_2.index t (0 : Fin 2) * 512 ≤ (i 0).val ∧ (i 0).val < win0_2.index t (0 : Fin 2) * 512 + 512
      omega
    | ⟨1, _⟩ =>
      show win0_2.index t (1 : Fin 2) * 512 ≤ (i 1).val ∧ (i 1).val < win0_2.index t (1 : Fin 2) * 512 + 512
      omega

/-- The idealized kernel's run: the result array ends at the blend, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference computes the same blend.

  Read entry by entry, the reference divides each query row and each key row by its floored length (`query_dir`,
  `key_dir`: its row sums start from a zero that adds nothing), takes the inner products of the directions and
  `exp (-5.5 * (1 - ·))` of them (`weight_entry`), contracts the weights with the key directions over all 16384 keys
  in one sum, and adds one half of that to the query (`reference_is_blend`).  It is the blend of every query row with
  all the keys, term for term: no algebra is needed on this side.
-/
import proofs.«160806_j28948079575487_1_alg».proof.Proof.Gen.ReferenceIdeal.Read
import proofs.«160806_j28948079575487_1_alg».proof.Proof.Retrieval
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Retrieval

/-- The reference's normalized query array holds each row's direction. -/
theorem query_dir (x0 : (⟨S4096x512, .f32⟩ : BufTy).Contents (Elt Ideal)) (R : Fin 4096) (k : Fin 512) :
    val_main_v15 (F := Ideal) x0 (ix2 R k) = dir (queryRow x0 R) k := by
  rw [val_main_v15_apply, val_main_v14_apply, val_main_v13_apply, val_main_v12_apply, val_main_cst_2_apply,
    val_main_v11_apply, val_main_v10_apply, val_main_v9_apply, val_main_cst_1_apply]
  show Ideal.div (x0 (ix2 R k)) (max (Ideal.sqrt (Ideal.ofBits .f32 0x00000000#32 + _)) (Ideal.ofBits .f32 0x2B8CBCCC#32)) = _
  rw [Ideal.ofBits_zero_f32, zero_add]
  unfold dir length lengthFloor queryRow
  refine congrArg (fun z => Ideal.div (x0 (ix2 R k)) (max (Ideal.sqrt z) (Ideal.ofBits .f32 0x2B8CBCCC#32))) ?_
  refine Finset.sum_congr rfl fun k' _ => ?_
  rw [val_main_v8_apply]
  have e : idx_main_v9 (idx_main_v10 (idx_main_v14 (ix2 R k))) k' = ix2 R k' :=
    funext fun a => Fin.ext (by match a with | ⟨0, _⟩ => rfl | ⟨1, _⟩ => rfl)
  rw [e]
  rfl

/-- The reference's normalized key array holds each row's direction. -/
theorem key_dir (x1 : (⟨S16384x512, .f32⟩ : BufTy).Contents (Elt Ideal)) (n : Fin 16384) (k : Fin 512) :
    val_main_v7 (F := Ideal) x1 (ix2 n k) = dir (keyRow x1 n) k := by
  rw [val_main_v7_apply, val_main_v6_apply, val_main_v5_apply, val_main_v4_apply, val_main_cst_0_apply,
    val_main_v3_apply, val_main_v2_apply, val_main_v1_apply, val_main_cst_apply]
  show Ideal.div (x1 (ix2 n k)) (max (Ideal.sqrt (Ideal.ofBits .f32 0x00000000#32 + _)) (Ideal.ofBits .f32 0x2B8CBCCC#32)) = _
  rw [Ideal.ofBits_zero_f32, zero_add]
  unfold dir length lengthFloor keyRow
  refine congrArg (fun z => Ideal.div (x1 (ix2 n k)) (max (Ideal.sqrt z) (Ideal.ofBits .f32 0x2B8CBCCC#32))) ?_
  refine Finset.sum_congr rfl fun k' _ => ?_
  rw [val_main_v0_apply]
  have e : idx_main_v1 (idx_main_v2 (idx_main_v6 (ix2 n k))) k' = ix2 n k' :=
    funext fun a => Fin.ext (by match a with | ⟨0, _⟩ => rfl | ⟨1, _⟩ => rfl)
  rw [e]
  rfl

/-- The reference's weight array holds each key's weight for each query. -/
theorem weight_entry (x0 : (⟨S4096x512, .f32⟩ : BufTy).Contents (Elt Ideal))
    (x1 : (⟨S16384x512, .f32⟩ : BufTy).Contents (Elt Ideal)) (R : Fin 4096) (n : Fin 16384) :
    val_main_v21 (F := Ideal) x0 x1 (ix2 R n) = weight (queryRow x0 R) (keyRow x1 n) := by
  rw [val_main_v21_apply, val_main_v20_apply, val_main_v19_apply, val_main_cst_4_apply, val_main_v18_apply,
    val_main_v17_apply, val_main_cst_3_apply, val_main_v16_apply]
  show Ideal.exp (Ideal.ofBits .f32 0xC0B00000#32 * (Ideal.ofBits .f32 0x3F800000#32 - _)) = _
  unfold weight affinity
  refine congrArg (fun z => Ideal.exp (Ideal.ofBits .f32 0xC0B00000#32 * (Ideal.ofBits .f32 0x3F800000#32 - z))) ?_
  refine Finset.sum_congr rfl fun k _ => ?_
  have el : lidx_main_v16 (ix2 R n) k = ix2 R k :=
    funext fun a => Fin.ext (by match a with | ⟨0, _⟩ => rfl | ⟨1, _⟩ => rfl)
  have er : ridx_main_v16 (ix2 R n) k = ix2 n k :=
    funext fun a => Fin.ext (by match a with | ⟨0, _⟩ => rfl | ⟨1, _⟩ => rfl)
  rw [el, er, query_dir, key_dir]

/-- The reference's result array is the blend of every query row with all the keys. -/
theorem reference_is_blend (x0 : (⟨S4096x512, .f32⟩ : BufTy).Contents (Elt Ideal))
    (x1 : (⟨S16384x512, .f32⟩ : BufTy).Contents (Elt Ideal)) :
    val_main_v25 (F := Ideal) x0 x1 = blendAll x0 x1 := by
  funext i
  obtain ⟨R, d, rfl⟩ : ∃ (R : Fin 4096) (d : Fin 512), i = ix2 R d := ⟨i 0, i 1, eq_ix2 i⟩
  rw [blendAll_apply, val_main_v25_apply, val_main_v24_apply, val_main_v23_apply, val_main_cst_5_apply,
    val_main_v22_apply]
  show x0 (ix2 R d) + Ideal.ofBits .f32 0x3F000000#32 * _ = _
  unfold blend share
  refine congrArg (fun z => x0 (ix2 R d) + Ideal.ofBits .f32 0x3F000000#32 * z) ?_
  refine Finset.sum_congr rfl fun n _ => ?_
  have el : lidx_main_v22 (ix2 R d) n = ix2 R n :=
    funext fun a => Fin.ext (by match a with | ⟨0, _⟩ => rfl | ⟨1, _⟩ => rfl)
  have er : ridx_main_v22 (ix2 R d) n = ix2 n d :=
    funext fun a => Fin.ext (by match a with | ⟨0, _⟩ => rfl | ⟨1, _⟩ => rfl)
  rw [el, er, weight_entry, key_dir]

end Cert.ReferenceIdeal.RefValue

end
-- ==== Proof.lean ====
/-
  A fused retrieval kernel against its plain reference, over the extended reals.

  Both programs take 4096 query rows and 16384 key rows of 512 entries.  Each row is divided by its length (the square
  root of the sum of its squares, never less than a small positive floor); the affinity of a query and a key is the inner
  product of the two directions; the key's weight is `exp (-5.5 * (1 - affinity))`; and the result row is the query
  row plus one half of the weighted sum of all the key directions.

  The reference does this in one piece: one [4096, 16384] array of weights and one contraction over all 16384 keys.  The
  kernel works tile by tile: for each of 8 query tiles of 512 rows it visits 8 key tiles of 2048 rows, keeps a running
  512 x 512 total that starts from zero at the first key tile and receives each key tile's partial contraction, and
  writes the query tile plus one half of the total after the last key tile.  Every literal (the floor, 1, -5.5, 1/2, the
  zeros the sums start from) is the same word in both programs, the conversions to a shorter float format before the
  two matrix products are the identity here, and a kernel operation and its host counterpart (square root, division,
  exponential, the products) are one function.  What remains is that eight partial sums over consecutive blocks of 2048
  keys, added one after the other onto zero, are the sum over all 16384 keys: addition of extended reals is commutative
  and associative also at the infinities, so the input's finiteness is never used.

  The frames of the two kernel programs are the generated ones; the reference's frame is its generated run with the
  result forgotten; the idealization rewrote nothing, so there is nothing to preserve.
-/
import proofs.«160806_j28948079575487_1_alg».proof.Defs
import proofs.«160806_j28948079575487_1_alg».proof.Proof.Gen.Kernel
import proofs.«160806_j28948079575487_1_alg».proof.Proof.Gen.Kernel.Skeleton
import proofs.«160806_j28948079575487_1_alg».proof.Proof.Gen.Kernel.Launch
import proofs.«160806_j28948079575487_1_alg».proof.Proof.Gen.Kernel.Points
import proofs.«160806_j28948079575487_1_alg».proof.Proof.Gen.Kernel.Frame
import proofs.«160806_j28948079575487_1_alg».proof.Proof.Gen.KernelIdeal
import proofs.«160806_j28948079575487_1_alg».proof.Proof.Gen.KernelIdeal.Skeleton
import proofs.«160806_j28948079575487_1_alg».proof.Proof.Gen.KernelIdeal.Launch
import proofs.«160806_j28948079575487_1_alg».proof.Proof.Gen.KernelIdeal.Points
import proofs.«160806_j28948079575487_1_alg».proof.Proof.Gen.KernelIdeal.Frame
import proofs.«160806_j28948079575487_1_alg».proof.Proof.Gen.ReferenceIdeal
import proofs.«160806_j28948079575487_1_alg».proof.Proof.Gen.Pre_finite_inputs
import proofs.«160806_j28948079575487_1_alg».proof.Proof.Gen.KernelIdeal.Value
import proofs.«160806_j28948079575487_1_alg».proof.Proof.Gen.ReferenceIdeal.Run
import proofs.«160806_j28948079575487_1_alg».proof.Proof.Gen.ReferenceIdeal.Read
import proofs.«160806_j28948079575487_1_alg».proof.Proof.Whole
import proofs.«160806_j28948079575487_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2)
    (Cert.ReferenceIdeal.Value.run (F := Ideal) m ρ)

theorem preserves : Cert.preserves_Kernel_KernelIdeal := trivial

/-- Both runs end with the result array at the blend of every query row with all the keys, of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.RefValue.reference_is_blend,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
